-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000x128 : Shape := ⟨2, ![640000, 128]⟩
abbrev S640000x16 : Shape := ⟨2, ![640000, 16]⟩
abbrev S2x640000 : Shape := ⟨2, ![2, 640000]⟩
abbrev S128x16 : Shape := ⟨2, ![128, 16]⟩
abbrev S3x128x128 : Shape := ⟨3, ![3, 128, 128]⟩
abbrev S3x128 : Shape := ⟨2, ![3, 128]⟩
abbrev S12x128 : Shape := ⟨2, ![12, 128]⟩
abbrev S_ : Shape := ⟨0, ![]⟩

class Facts : Prop where
  bcast_S_S640000x128 : S_.BroadcastsInDim S640000x128 (![] : Fin 0 → Fin S640000x128.rank)
  reducesTo_S640000x128_S_d0_1 : S640000x128.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S128x16 : S_.BroadcastsInDim S128x16 (![] : Fin 0 → Fin S128x16.rank)
  reducesTo_S128x16_S_d0_1 : S128x16.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S12x128 : S_.BroadcastsInDim S12x128 (![] : Fin 0 → Fin S12x128.rank)
  reducesTo_S12x128_S_d0_1 : S12x128.ReducesTo [0, 1] S_

variable [Facts]

def fn_part1 {F : FTy → Type} [FloatOps F] (main_arg5 : FVec F S3x128 .f32) (main_arg6 : FVec F S12x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S12x128 .f32 := Host.absf main_arg6
  let main_cst_8 : FVec F S_ .f32 := constant S_ .f32 0x7F800000#32
  let main_v25 : FVec F S12x128 .f32 := broadcastInDim S12x128 ![] bcast_S_S12x128 main_cst_8
  let main_v26 : IVec S12x128 1 := cmpf .olt main_v24 main_v25
  let main_c_9 : IVec S_ 1 := constantI S_ 1 1#1
  let main_v27 : IVec S_ 1 := (fun x v => Host.reduce IntOp.andi x v reducesTo_S12x128_S_d0_1 h_S_) main_v26 main_c_9
  let main_v28 : IVec S_ 1 := andi main_v23 main_v27
  main_v28

def fn {F : FTy → Type} [FloatOps F] (main_arg0 : FVec F S640000x128 .f32) (main_arg1 : FVec F S640000x16 .f32) (main_arg2 : IVec S2x640000 32) (main_arg3 : FVec F S128x16 .f32) (main_arg4 : FVec F S3x128x128 .f32) (main_arg5 : FVec F S3x128 .f32) (main_arg6 : FVec F S12x128 .f32) : IVec S_ 1 :=
  let main_v0 : FVec F S640000x128 .f32 := Host.absf main_arg0
  let main_cst : FVec F S_ .f32 := constant S_ .f32 0x7F800000#32
  let main_v1 : FVec F S640000x128 .f32 := broadcastInDim S640000x128 ![] bcast_S_S640000x128 main_cst
  let main_v2 : IVec S640000x128 1 := cmpf .olt main_v0 main_v1
  let main_c : IVec S_ 1 := constantI S_ 1 1#1
  let main_v3 : IVec S_ 1 := (fun x v => Host.reduce IntOp.andi x v reducesTo_S640000x128_S_d0_1 h_S_) main_v2 main_c
  let main_v4 : FVec F S640000x16 .f32 := Host.absf main_arg1
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S640000x128 : Shape := ⟨2, ![640000, 128]⟩
abbrev S640000x16 : Shape := ⟨2, ![640000, 16]⟩
abbrev S2x640000 : Shape := ⟨2, ![2, 640000]⟩
abbrev S128x16 : Shape := ⟨2, ![128, 16]⟩
abbrev S3x128x128 : Shape := ⟨3, ![3, 128, 128]⟩
abbrev S3x128 : Shape := ⟨2, ![3, 128]⟩
abbrev S12x128 : Shape := ⟨2, ![12, 128]⟩
abbrev S16x128 : Shape := ⟨2, ![16, 128]⟩
abbrev S10000x16 : Shape := ⟨2, ![10000, 16]⟩
abbrev S10000x128 : Shape := ⟨2, ![10000, 128]⟩
abbrev S1x640000 : Shape := ⟨2, ![1, 640000]⟩
abbrev S640000 : Shape := ⟨1, ![640000]⟩
abbrev S_ : Shape := ⟨0, ![]⟩
abbrev S20000x128 : Shape := ⟨2, ![20000, 128]⟩
abbrev S640000x1 : Shape := ⟨2, ![640000, 1]⟩
abbrev S128x12 : Shape := ⟨2, ![128, 12]⟩
abbrev S20000x12 : Shape := ⟨2, ![20000, 12]⟩
abbrev S5000x128 : Shape := ⟨2, ![5000, 128]⟩
abbrev S5000x12 : Shape := ⟨2, ![5000, 12]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 18
  | .vmem => 14
  | .smem => 0
  | _ => 0

abbrev bufTy : (tb : Table) → Fin (tcTables nBuf tb) → BufTy
  | .hbm, ⟨0, _⟩ => ⟨S640000x128, .f32⟩
  | .hbm, ⟨1, _⟩ => ⟨S640000x16, .f32⟩
  | .hbm, ⟨2, _⟩ => ⟨S2x640000, .i32⟩
  | .hbm, ⟨3, _⟩ => ⟨S128x16, .f32⟩
  | .hbm, ⟨4, _⟩ => ⟨S3x128x128, .f32⟩
  | .hbm, ⟨5, _⟩ => ⟨S3x128, .f32⟩
  | .hbm, ⟨6, _⟩ => ⟨S12x128, .f32⟩
  | .hbm, ⟨7, _⟩ => ⟨S16x128, .f32⟩
  | .hbm, ⟨8, _⟩ => ⟨S640000x128, .f32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S20000x128, .f32⟩
  | .hbm, ⟨13, _⟩ => ⟨S640000x1, .i32⟩
  | .hbm, ⟨14, _⟩ => ⟨S20000x128, .f32⟩
  | .hbm, ⟨15, _⟩ => ⟨S3x128x128, .f32⟩
  | .hbm, ⟨16, _⟩ => ⟨S128x12, .f32⟩
  | .hbm, ⟨17, _⟩ => ⟨S20000x12, .f32⟩
  | .local _ .vmem, ⟨0, _⟩ => ⟨S10000x16, .f32⟩
  | .local _ .vmem, ⟨1, _⟩ => ⟨S10000x16, .f32⟩
  | .local _ .vmem, ⟨2, _⟩ => ⟨S10000x128, .f32⟩
  | .local _ .vmem, ⟨3, _⟩ => ⟨S10000x128, .f32⟩
  | .local _ .vmem, ⟨4, _⟩ => ⟨S16x128, .f32⟩
  | .local _ .vmem, ⟨5, _⟩ => ⟨S10000x128, .f32⟩
  | .local _ .vmem, ⟨6, _⟩ => ⟨S10000x128, .f32⟩
  | .local _ .vmem, ⟨7, _⟩ => ⟨S5000x128, .f32⟩
  | .local _ .vmem, ⟨8, _⟩ => ⟨S5000x128, .f32⟩
  | .local _ .vmem, ⟨9, _⟩ => ⟨S3x128x128, .f32⟩
  | .local _ .vmem, ⟨10, _⟩ => ⟨S3x128, .f32⟩
  | .local _ .vmem, ⟨11, _⟩ => ⟨S128x12, .f32⟩
  | .local _ .vmem, ⟨12, _⟩ => ⟨S5000x12, .f32⟩
  | .local _ .vmem, ⟨13, _⟩ => ⟨S5000x12, .f32⟩
  | _, _ => ⟨S640000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x12 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x12 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S128x16_S16x128_1_0 : S128x16.Transposes [1, 0] S16x128
  inb_S10000x16_S10000x16_0_0 : ∀ a, (![0, 0] : Fin 2 → Nat) a + S10000x16.size a ≤ S10000x16.size a
  h_S10000x16 : 0 < S10000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S10000x128_S10000x128_0_0 : ∀ a, (![0, 0] : Fin 2 → Nat) a + S10000x128.size a ≤ S10000x128.size a
  h_S10000x128 : 0 < S10000x128.numel
  slices_S2x640000_S1x640000_1_0 : S2x640000.Slices ![1, 0] S1x640000
  shapeCasts_S1x640000_S640000 : S1x640000.ShapeCasts S640000
  bcast_S_S20000x128 : S_.BroadcastsInDim S20000x128 (![] : Fin 0 → Fin S20000x128.rank)
  bcast_S640000_S640000x1_0 : S640000.BroadcastsInDim S640000x1 (![0] : Fin 1 → Fin S640000x1.rank)
  transposes_S3x128x128_S3x128x128_0_2_1 : S3x128x128.Transposes [0, 2, 1] S3x128x128
  transposes_S12x128_S128x12_1_0 : S12x128.Transposes [1, 0] S128x12
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S5000x128 : S1x128.Broadcasts S5000x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S128x12_S128x12_0_0 : ∀ a, (![0, 0] : Fin 2 → Nat) a + S128x12.size a ≤ S128x12.size a
  h_S128x12 : 0 < S128x12.numel
  shapeCasts_S128x12_S128x12 : S128x12.ShapeCasts S128x12
  inb_S5000x12_S5000x12_0_0 : ∀ a, (![0, 0] : Fin 2 → Nat) a + S5000x12.size a ≤ S5000x12.size a
  h_S5000x12 : 0 < S5000x12.numel
  dot_S10000x16_S16x128_S10000x128_1_0_0_1_n_n_wf : DotDims.WF S10000x16 S16x128 S10000x128 [1] [0] [0] [1] [] []
  scatter_S20000x128_S640000x1_S640000x128_1_0_0_1_wf : ScatterDims.WF S20000x128 S640000x1 S640000x128 [1] [0] [0] 1
  dot_S5000x128_S128x128_S5000x128_1_0_0_1_n_n_wf : DotDims.WF S5000x128 S128x128 S5000x128 [1] [0] [0] [1] [] []
  dot_S5000x128_S128x12_S5000x12_1_0_0_1_n_n_wf : DotDims.WF S5000x128 S128x12 S5000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S640000x16.size a
  hwx0_0 : ∀ i : grid0.Coords, EltTy.bits .f32 = 32 ∨ (Rect.block (s := S640000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S640000x128.size a
  hwx0_1 : ∀ i : grid0.Coords, EltTy.bits .f32 = 32 ∨ (Rect.block (s := S640000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S640000x128.size a
  hwx0_3 : ∀ i : grid0.Coords, EltTy.bits .f32 = 32 ∨ (Rect.block (s := S640000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128x128.size a ≤ S3x128x128.size a
  hwx1_1 : ∀ i : grid1.Coords, EltTy.bits .f32 = 32 ∨ (Rect.block (s := S3x128x128) S3x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128.size a ≤ S3x128.size a
  hwx1_2 : ∀ i : grid1.Coords, EltTy.bits .f32 = 32 ∨ (Rect.block (s := S3x128) S3x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x12.size a ≤ S128x12.size a
  hwx1_3 : ∀ i : grid1.Coords, EltTy.bits .f32 = 32 ∨ (Rect.block (s := S128x12) S128x12.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x12.size a ≤ S20000x12.size a
  hwx1_4 : ∀ i : grid1.Coords, EltTy.bits .f32 = 32 ∨ (Rect.block (s := S20000x12) S5000x12.size (cc1_transform_4 i) (hinb1_4 i)).WholeWords (EltTy.packing .f32)

variable [Facts₀]

def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x12_S5000x12_1_0_0_1_n_n : DotDims S5000x128 S128x12 S5000x12 where
  lhsContracting := [1]
  rhsContracting := [0]
  lhsNonContracting := [0]
  rhsNonContracting := [1]
  lhsBatch := []
  rhsBatch := []
  wf := dot_S5000x128_S128x12_S5000x12_1_0_0_1_n_n_wf

abbrev win0_0 : Pipeline.Window sig grid0 :=
  Pipeline.Window.ofSpec (Memref.whole main_arg1) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S3x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S3x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S128x12.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S5000x12.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S640000x128 : Shape := ⟨2, ![640000, 128]⟩
abbrev S640000x16 : Shape := ⟨2, ![640000, 16]⟩
abbrev S2x640000 : Shape := ⟨2, ![2, 640000]⟩
abbrev S128x16 : Shape := ⟨2, ![128, 16]⟩
abbrev S3x128x128 : Shape := ⟨3, ![3, 128, 128]⟩
abbrev S3x128 : Shape := ⟨2, ![3, 128]⟩
abbrev S12x128 : Shape := ⟨2, ![12, 128]⟩
abbrev S1x640000 : Shape := ⟨2, ![1, 640000]⟩
abbrev S640000 : Shape := ⟨1, ![640000]⟩
abbrev S_ : Shape := ⟨0, ![]⟩
abbrev S20000x128 : Shape := ⟨2, ![20000, 128]⟩
abbrev S640000x1 : Shape := ⟨2, ![640000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S20000x12 : Shape := ⟨2, ![20000, 12]⟩

abbrev nBuf : Space → Nat
  | .hbm => 67
  | .vmem => 0
  | .smem => 0
  | _ => 0

abbrev bufTy : (tb : Table) → Fin (tcTables nBuf tb) → BufTy
  | .hbm, ⟨0, _⟩ => ⟨S640000x128, .f32⟩
  | .hbm, ⟨1, _⟩ => ⟨S640000x16, .f32⟩
  | .hbm, ⟨2, _⟩ => ⟨S2x640000, .i32⟩
  | .hbm, ⟨3, _⟩ => ⟨S128x16, .f32⟩
  | .hbm, ⟨4, _⟩ => ⟨S3x128x128, .f32⟩
  | .hbm, ⟨5, _⟩ => ⟨S3x128, .f32⟩
  | .hbm, ⟨6, _⟩ => ⟨S12x128, .f32⟩
  | .hbm, ⟨7, _⟩ => ⟨S640000x128, .f32⟩
  | .hbm, ⟨8, _⟩ => ⟨S640000x128, .f32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S20000x128, .f32⟩
  | .hbm, ⟨13, _⟩ => ⟨S640000x1, .i32⟩
  | .hbm, ⟨14, _⟩ => ⟨S20000x128, .f32⟩
  | .hbm, ⟨15, _⟩ => ⟨S1x128x128, .f32⟩
  | .hbm, ⟨16, _⟩ => ⟨S128x128, .f32⟩
  | .hbm, ⟨17, _⟩ => ⟨S20000x128, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S20000x128, .f32⟩
  | .hbm, ⟨22, _⟩ => ⟨S20000x128, .f32⟩
  | .hbm, ⟨23, _⟩ => ⟨S20000x128, .f32⟩
  | .hbm, ⟨24, _⟩ => ⟨S20000x128, .f32⟩
  | .hbm, ⟨25, _⟩ => ⟨S_, .f32⟩
  | .hbm, ⟨26, _⟩ => ⟨S20000x128, .f32⟩
  | .hbm, ⟨27, _⟩ => ⟨S20000x128, .f32⟩
  | .hbm, ⟨28, _⟩ => ⟨S_, .f32⟩
  | .hbm, ⟨29, _⟩ => ⟨S20000x128, .f32⟩
  | .hbm, ⟨30, _⟩ => ⟨S20000x128, .f32⟩
  | .hbm, ⟨31, _⟩ => ⟨S20000x128, .f32⟩
  | .hbm, ⟨32, _⟩ => ⟨S1x128x128, .f32⟩
  | .hbm, ⟨33, _⟩ => ⟨S128x128, .f32⟩
  | .hbm, ⟨34, _⟩ => ⟨S20000x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S20000x128, .f32⟩
  | .hbm, ⟨39, _⟩ => ⟨S20000x128, .f32⟩
  | .hbm, ⟨40, _⟩ => ⟨S20000x128, .f32⟩
  | .hbm, ⟨41, _⟩ => ⟨S20000x128, .f32⟩
  | .hbm, ⟨42, _⟩ => ⟨S_, .f32⟩
  | .hbm, ⟨43, _⟩ => ⟨S20000x128, .f32⟩
  | .hbm, ⟨44, _⟩ => ⟨S20000x128, .f32⟩
  | .hbm, ⟨45, _⟩ => ⟨S_, .f32⟩
  | .hbm, ⟨46, _⟩ => ⟨S20000x128, .f32⟩
  | .hbm, ⟨47, _⟩ => ⟨S20000x128, .f32⟩
  | .hbm, ⟨48, _⟩ => ⟨S20000x128, .f32⟩
  | .hbm, ⟨49, _⟩ => ⟨S1x128x128, .f32⟩
  | .hbm, ⟨50, _⟩ => ⟨S128x128, .f32⟩
  | .hbm, ⟨51, _⟩ => ⟨S20000x128, .f32⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S20000x128, .f32⟩
  | .hbm, ⟨56, _⟩ => ⟨S20000x128, .f32⟩
  | .hbm, ⟨57, _⟩ => ⟨S20000x128, .f32⟩
  | .hbm, ⟨58, _⟩ => ⟨S20000x128, .f32⟩
  | .hbm, ⟨59, _⟩ => ⟨S_, .f32⟩
  | .hbm, ⟨60, _⟩ => ⟨S20000x128, .f32⟩
  | .hbm, ⟨61, _⟩ => ⟨S20000x128, .f32⟩
  | .hbm, ⟨62, _⟩ => ⟨S_, .f32⟩
  | .hbm, ⟨63, _⟩ => ⟨S20000x128, .f32⟩
  | .hbm, ⟨64, _⟩ => ⟨S20000x128, .f32⟩
  | .hbm, ⟨65, _⟩ => ⟨S20000x128, .f32⟩
  | .hbm, ⟨66, _⟩ => ⟨S20000x12, .f32⟩
  | _, _ => ⟨S640000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v33 : Ref sig .tc := ⟨.hbm, 65, rfl⟩
abbrev main_v34 : Ref sig .tc := ⟨.hbm, 66, rfl⟩

abbrev nD : Nat := 1
abbrev τ : Topo := Topo.v7x

variable {F : FTy → Type} [FloatOps F]

class Facts₀ : Prop where
  slices_S2x640000_S1x640000_1_0 : S2x640000.Slices ![1, 0] S1x640000
  shapeCasts_S1x640000_S640000 : S1x640000.ShapeCasts S640000
  bcast_S_S20000x128 : S_.BroadcastsInDim S20000x128 (![] : Fin 0 → Fin S20000x128.rank)
  bcast_S640000_S640000x1_0 : S640000.BroadcastsInDim S640000x1 (![0] : Fin 1 → Fin S640000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S640000x16_S128x16_S640000x128_1_1_0_0_n_n_wf : DotDims.WF S640000x16 S128x16 S640000x128 [1] [1] [0] [0] [] []
  scatter_S20000x128_S640000x1_S640000x128_1_0_0_1_wf : ScatterDims.WF S20000x128 S640000x1 S640000x128 [1] [0] [0] 1
  dot_S20000x128_S128x128_S20000x128_1_1_0_0_n_n_wf : DotDims.WF S20000x128 S128x128 S20000x128 [1] [1] [0] [0] [] []
  dot_S20000x128_S12x128_S20000x12_1_1_0_0_n_n_wf : DotDims.WF S20000x128 S12x128 S20000x12 [1] [1] [0] [0] [] []

variable [Facts₀]

def dot_S640000x16_S128x16_S640000x128_1_1_0_0_n_n : DotDims S640000x16 S128x16 S640000x128 where
  lhsContracting := [1]
  rhsContracting := [1]
  lhsNonContracting := [0]
  rhsNonContracting := [0]
  lhsBatch := []
  rhsBatch := []
  wf := dot_S640000x16_S128x16_S640000x128_1_1_0_0_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x128_S20000x128_1_1_0_0_n_n : DotDims S20000x128 S128x128 S20000x128 where
  lhsContracting := [1]
  rhsContracting := [1]
  lhsNonContracting := [0]
  rhsNonContracting := [0]
  lhsBatch := []
  rhsBatch := []
  wf := dot_S20000x128_S128x128_S20000x128_1_1_0_0_n_n_wf
def dot_S20000x128_S12x128_S20000x12_1_1_0_0_n_n : DotDims S20000x128 S12x128 S20000x12 where
  lhsContracting := [1]
  rhsContracting := [1]
  lhsNonContracting := [0]
  rhsNonContracting := [0]
  lhsBatch := []
  rhsBatch := []
  wf := dot_S20000x128_S12x128_S20000x12_1_1_0_0_n_n_wf

class Facts : Prop extends Facts₀ where

variable [Facts]
-- ==== Proof.KerRun.lean ====
/-
  The idealized kernel program's run with its result named.

  The program is two kernel regions among host operations. Every weakly fair execution ends with each buffer at the
  contents the last boundary of the run gives it; read at the result buffer this is what the second region's
  write-backs leave, and read at an argument it is the argument as launched.
-/
import proofs.«179193_j31791347925878_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the arguments end as launched. -/
theorem run_result : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunV

end
-- ==== Proof.Spec.lean ====
/-
  What both programs compute, as plain functions on the extended reals.

  Edge `e` carries a radial-basis row `rbf e` (16 numbers) and a feature row `g e` (128 numbers). Its message is the
  projected basis gated by the features: `message e f = (∑ r, rbf e r · w f r) · g e f`. The messages are then summed
  into the atoms they point at (a scatter-add, never opened here: both programs apply the same one to the same
  operands), and every atom's 128 features go through three dense layers with the activation
  `silu x = x · logistic x` and a final projection to 12 numbers. Everything after the scatter-add is row-wise: row `n`
  of the result depends on row `n` of the summed array only, which is why a kernel may process the atoms in blocks
  of rows. The functions below are stated on one row; the weights enter as entry functions so that a program that
  keeps them transposed or sliced meets the same term.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of ideal values. -/
abbrev Arr2 (a b : ℕ) : Type := FVec Ideal ⟨2, ![a, b]⟩ .f32
/-- A rank-3 array of ideal values. -/
abbrev Arr3 (a b c : ℕ) : Type := FVec Ideal ⟨3, ![a, b, c]⟩ .f32

/-- The message of edge `e` at feature `f`: the basis row projected by row `f` of the weights, times the gate. -/
def messageAt (rbf : Arr2 640000 16) (w : Arr2 128 16) (g : Arr2 640000 128) (e : Fin 640000) (f : Fin 128) : EReal :=
  (∑ r : Fin 16, rbf (ix2 e r) * w (ix2 f r)) * g (ix2 e f)

/-- All messages, as an array. -/
def message (rbf : Arr2 640000 16) (w : Arr2 128 16) (g : Arr2 640000 128) : Arr2 640000 128 :=
  fun i => messageAt rbf w g (i 0) (i 1)

/-- `silu x = x · logistic x`, with `logistic x = 1 / (1 + e⁻ˣ)`. -/
def silu (x : EReal) : EReal := x * Ideal.logistic x

/-- One dense layer on one row: `silu (∑ f, x f · w g f + β g)`. -/
def dense (w : Fin 128 → Fin 128 → EReal) (β : Fin 128 → EReal) (x : Fin 128 → EReal) (g : Fin 128) : EReal :=
  silu ((∑ f : Fin 128, x f * w g f) + β g)

/-- The final projection of one row: `∑ f, x f · wo o f`. -/
def proj (wo : Fin 12 → Fin 128 → EReal) (x : Fin 128 → EReal) (o : Fin 12) : EReal :=
  ∑ f : Fin 128, x f * wo o f

/-- Three dense layers and the projection, on one row. -/
def head (w0 w1 w2 : Fin 128 → Fin 128 → EReal) (β0 β1 β2 : Fin 128 → EReal) (wo : Fin 12 → Fin 128 → EReal)
    (x : Fin 128 → EReal) (o : Fin 12) : EReal :=
  proj wo (dense w2 β2 (dense w1 β1 (dense w0 β0 x))) o

/-- The whole result from the summed array `atom` and the weights as the arguments hold them:
    `W k g f` (layer, output feature, input feature), `b k g`, `Wout o f`. -/
def output (W : Arr3 3 128 128) (b : Arr2 3 128) (Wout : Arr2 12 128) (atom : Arr2 20000 128) : Arr2 20000 12 :=
  fun i => head (fun g f => W (ix3 0 g f)) (fun g f => W (ix3 1 g f)) (fun g f => W (ix3 2 g f))
    (fun g => b (ix2 0 g)) (fun g => b (ix2 1 g)) (fun g => b (ix2 2 g)) (fun o f => Wout (ix2 o f))
    (fun f => atom (ix2 (i 0) f)) (i 1)

/-- The row function depends on its weights and its row only through their entries. -/
theorem head_congr {w0 w1 w2 w0' w1' w2' : Fin 128 → Fin 128 → EReal} {β0 β1 β2 β0' β1' β2' : Fin 128 → EReal}
    {wo wo' : Fin 12 → Fin 128 → EReal} {x x' : Fin 128 → EReal} {o o' : Fin 12}
    (h0 : ∀ g f, w0 g f = w0' g f) (h1 : ∀ g f, w1 g f = w1' g f) (h2 : ∀ g f, w2 g f = w2' g f)
    (b0 : ∀ g, β0 g = β0' g) (b1 : ∀ g, β1 g = β1' g) (b2 : ∀ g, β2 g = β2' g)
    (ho : ∀ o f, wo o f = wo' o f) (hx : ∀ f, x f = x' f) (hq : o = o') :
    head w0 w1 w2 β0 β1 β2 wo x o = head w0' w1' w2' β0' β1' β2' wo' x' o' := by
  obtain rfl : w0 = w0' := funext fun g => funext fun f => h0 g f
  obtain rfl : w1 = w1' := funext fun g => funext fun f => h1 g f
  obtain rfl : w2 = w2' := funext fun g => funext fun f => h2 g f
  obtain rfl : β0 = β0' := funext b0
  obtain rfl : β1 = β1' := funext b1
  obtain rfl : β2 = β2' := funext b2
  obtain rfl : wo = wo' := funext fun o => funext fun f => ho o f
  obtain rfl : x = x' := funext hx
  rw [hq]

end Cert.Spec

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.KerPay.lean ====
/-
  The two kernel bodies' stored values read at an entry.

  The first body stores, at row `p` and feature `q` of its block, the projected basis row times the gate. The second
  stores, at row `p` and output `q`, the three dense layers and the projection of row `p` of its block — with the
  weights as the body loads them: each layer's matrix as a [1,128,128] slice kept input-feature-major, each bias as
  a [1,128] slice, the projection as a [128,12] matrix.
-/
import proofs.«179193_j31791347925878_2_alg».proof.Proof.Gen.KernelIdeal.Skeleton
import proofs.«179193_j31791347925878_2_alg».proof.Proof.Spec
import proofs.«179193_j31791347925878_2_alg».proof.Proof.LibPlainDot
import Idealize.ShloMosaic.Lib.ValueLayout

noncomputable section

open scoped BigOperators

namespace Cert.KerPay

open Idealize.ShloMosaic Idealize.ShloMosaic.ValueIdx Cert.KernelIdeal Cert.KernelIdeal.Gen

/-- The first body's product record is the plain 10000×16 by 16×128 one. -/
theorem rec0 : dot_S10000x16_S16x128_S10000x128_1_0_0_1_n_n = DotDims.plain 10000 16 128 := rfl

/-- The first body's stored value at an entry. -/
theorem pay0_apply (v0 : Vec Ideal S10000x16 .f32) (v1 : Vec Ideal S16x128 .f32) (v4 : Vec Ideal S10000x128 .f32)
    (p : Fin 10000) (q : Fin 128) :
    k0_pay1 (F := Ideal) v0 v1 v4 (ix2 p q) = (∑ r : Fin 16, v0 (ix2 p r) * v1 (ix2 r q)) * v4 (ix2 p q) := by
  unfold k0_pay1
  refine (mulf_apply _ _ _).trans ?_
  refine congrArg (· * v4 (ix2 p q)) ?_
  rw [shapeCast_self, rec0]
  exact Cert.PlainDot.matmul_zero_plain_apply none v0 v1 p q

/-- The second body's product records are the plain 5000×128 by 128×128 and 5000×128 by 128×12 ones. -/
theorem rec1 : dot_S5000x128_S128x128_S5000x128_1_0_0_1_n_n = DotDims.plain 5000 128 128 := rfl
theorem rec2 : dot_S5000x128_S128x12_S5000x12_1_0_0_1_n_n = DotDims.plain 5000 128 12 := rfl

/-- A dense layer's pre-activation as the second body computes it: the product of the rows by the layer's matrix
    (its [1,128,128] slice read as a 128×128 matrix) plus the bias row (its [1,128] slice, flattened and put back)
    broadcast over the rows. -/
def pre (x : FVec Ideal S5000x128 .f32) (w : Vec Ideal S1x128x128 .f32) (β : Vec Ideal S1x128 .f32) :
    FVec Ideal S5000x128 .f32 :=
  addf
    (matmul dot_S5000x128_S128x128_S5000x128_1_0_0_1_n_n none x
      (shapeCast S128x128 w shapeCasts_S1x128x128_S128x128 : FVec Ideal S128x128 .f32)
      (constant S5000x128 .f32 0x00000000#32))
    (broadcastTo S5000x128
      (shapeCast S1x128 (shapeCast S128 β shapeCasts_S1x128_S128 : FVec Ideal S128 .f32) shapeCasts_S128_S1x128 :
        FVec Ideal S1x128 .f32)
      broadcasts_S1x128_S5000x128)

/-- A dense layer as the second body computes it: the pre-activation times its logistic. -/
def layer (x : FVec Ideal S5000x128 .f32) (w : Vec Ideal S1x128x128 .f32) (β : Vec Ideal S1x128 .f32) :
    FVec Ideal S5000x128 .f32 :=
  mulf (pre x w β) (logistic (pre x w β))

/-- The pre-activation at an entry: the row times the matrix's column, plus the bias. -/
theorem pre_apply (x : FVec Ideal S5000x128 .f32) (w : Vec Ideal S1x128x128 .f32) (β : Vec Ideal S1x128 .f32)
    (p : Fin 5000) (g : Fin 128) :
    pre x w β (ix2 p g) = (∑ f : Fin 128, x (ix2 p f) * w (ix3 (0 : Fin 1) f g)) + β (ix2 (0 : Fin 1) g) := by
  unfold pre
  refine (addf_apply _ _ _).trans ?_
  refine congrArg₂ (· + ·) ?_ ?_
  · rw [rec1]
    refine (Cert.PlainDot.matmul_zero_plain_apply none x _ p g).trans ?_
    refine Finset.sum_congr rfl fun f _ => ?_
    exact congrArg (x (ix2 p f) * ·) (shapeCast_1ab_ab_apply w _ f g)
  · refine (broadcastTo_1b_ab_apply _ _ p g).trans ?_
    refine (shapeCast_a_1a_apply _ _ (0 : Fin 1) g).trans ?_
    exact shapeCast_1a_a_apply β _ g

/-- A dense layer of the second body at an entry is the specification's dense layer of the row. -/
theorem layer_apply (x : FVec Ideal S5000x128 .f32) (w : Vec Ideal S1x128x128 .f32) (β : Vec Ideal S1x128 .f32)
    (p : Fin 5000) (g : Fin 128) :
    layer x w β (ix2 p g)
      = Cert.Spec.dense (fun g f => w (ix3 (0 : Fin 1) f g)) (fun g => β (ix2 (0 : Fin 1) g))
          (fun f => x (ix2 p f)) g := by
  unfold layer Cert.Spec.dense Cert.Spec.silu
  refine (mulf_apply _ _ _).trans ?_
  show _ * FloatOps.logistic _ = _
  rw [Ideal.logistic_def, pre_apply]

/-- The second body's stored value is three such layers, one on the other, and the final product. -/
theorem pay1_eq (v0 : Vec Ideal S5000x128 .f32) (v2 : Vec Ideal S1x128x128 .f32) (v4 : Vec Ideal S1x128 .f32)
    (v12 : Vec Ideal S1x128x128 .f32) (v14 : Vec Ideal S1x128 .f32) (v22 : Vec Ideal S1x128x128 .f32)
    (v24 : Vec Ideal S1x128 .f32) (v32 : Vec Ideal S128x12 .f32) :
    k1_pay1 (F := Ideal) v0 v2 v4 v12 v14 v22 v24 v32
      = matmul dot_S5000x128_S128x12_S5000x12_1_0_0_1_n_n none
          (layer (layer (layer
            (shapeCast S5000x128 v0 shapeCasts_S5000x128_S5000x128 : FVec Ideal S5000x128 .f32) v2 v4) v12 v14) v22 v24)
          (shapeCast S128x12 v32 shapeCasts_S128x12_S128x12 : FVec Ideal S128x12 .f32)
          (constant S5000x12 .f32 0x00000000#32) := rfl

/-- The second body's stored value at an entry. -/
theorem pay1_apply (v0 : Vec Ideal S5000x128 .f32) (v2 : Vec Ideal S1x128x128 .f32) (v4 : Vec Ideal S1x128 .f32)
    (v12 : Vec Ideal S1x128x128 .f32) (v14 : Vec Ideal S1x128 .f32) (v22 : Vec Ideal S1x128x128 .f32)
    (v24 : Vec Ideal S1x128 .f32) (v32 : Vec Ideal S128x12 .f32) (p : Fin 5000) (q : Fin 12) :
    k1_pay1 (F := Ideal) v0 v2 v4 v12 v14 v22 v24 v32 (ix2 p q)
      = Cert.Spec.head (fun g f => v2 (ix3 (0 : Fin 1) f g)) (fun g f => v12 (ix3 (0 : Fin 1) f g))
          (fun g f => v22 (ix3 (0 : Fin 1) f g))
          (fun g => v4 (ix2 (0 : Fin 1) g)) (fun g => v14 (ix2 (0 : Fin 1) g)) (fun g => v24 (ix2 (0 : Fin 1) g))
          (fun o f => v32 (ix2 f o)) (fun f => v0 (ix2 p f)) q := by
  rw [pay1_eq, shapeCast_self, shapeCast_self, rec2]
  refine (Cert.PlainDot.matmul_zero_plain_apply none _ v32 p q).trans ?_
  unfold Cert.Spec.head Cert.Spec.proj
  refine Finset.sum_congr rfl fun f _ => ?_
  refine congrArg (· * v32 (ix2 f q)) ?_
  rw [layer_apply]
  refine congrArg (fun r => Cert.Spec.dense _ _ r f) (funext fun f' => ?_)
  rw [layer_apply]
  refine congrArg (fun r => Cert.Spec.dense _ _ r f') (funext fun f'' => ?_)
  exact layer_apply v0 v2 v4 p f''

end Cert.KerPay

end
-- ==== Proof.KerMlp.lean ====
/-
  The second region's result array as one function of the arrays the region finds.

  The region walks four blocks of 5000 atoms. At a block it reads the block's rows of the summed array and the whole
  weight arrays, and writes the same rows of the result: row `n` of the result is the three dense layers and the
  projection of row `n` of the summed array. The four blocks tile the 20000 rows, so the array after the region is that
  function of the whole arrays.
-/
import proofs.«179193_j31791347925878_2_alg».proof.Proof.Gen.KernelIdeal.Frame
import proofs.«179193_j31791347925878_2_alg».proof.Proof.Spec
import proofs.«179193_j31791347925878_2_alg».proof.Proof.KerPay
import Idealize.ShloMosaic.Lib.Pipeline.Value
import Idealize.ShloMosaic.Lib.ValueIdx

set_option maxRecDepth 16384

noncomputable section

namespace Cert.KernelIdeal.Mlp

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Row `n`, output `o` of the result, from the summed array `a`, the layer matrices `w` kept input-feature-major
    (`w k f g`), the biases `b k g` and the projection `wo f o`. -/
def G1 (a : FVec Ideal S20000x128 .f32) (w : FVec Ideal S3x128x128 .f32) (b : FVec Ideal S3x128 .f32)
    (wo : FVec Ideal S128x12 .f32) : FVec Ideal S20000x12 .f32 :=
  fun i => Cert.Spec.head (fun g f => w (ix3 (0 : Fin 3) f g)) (fun g f => w (ix3 (1 : Fin 3) f g))
    (fun g f => w (ix3 (2 : Fin 3) f g))
    (fun g => b (ix2 (0 : Fin 3) g)) (fun g => b (ix2 (1 : Fin 3) g)) (fun g => b (ix2 (2 : Fin 3) g))
    (fun o f => wo (ix2 f o)) (fun f => a (ix2 (i 0) f)) (i 1)

/-- A load through a rectangle reads the array at the rectangle's offset plus the coordinate. -/
theorem ld_at {S : Shape} {α : Type} (X : S.Idx → α) (r : Rect S) (x : r.shape.Idx) (k : S.Idx)
    (h : ∀ a, r.off a + r.stride a * (x a).val = (k a).val) : X (r.idx x) = X k :=
  congrArg X (funext fun a => Fin.ext (h a))

theorem ld_w0 (x1 : Vec Ideal S3x128x128 .f32) (f g : Fin 128) :
    View.ld x1 r1_1 (ix3 (0 : Fin 1) f g) = x1 (ix3 (0 : Fin 3) f g) :=
  ld_at x1 r1_1 _ _ fun a => by
    match a with
    | ⟨0, _⟩ => rfl
    | ⟨1, _⟩ => show 0 + 1 * f.val = f.val; omega
    | ⟨2, _⟩ => show 0 + 1 * g.val = g.val; omega
theorem ld_w1 (x1 : Vec Ideal S3x128x128 .f32) (f g : Fin 128) :
    View.ld x1 r1_3 (ix3 (0 : Fin 1) f g) = x1 (ix3 (1 : Fin 3) f g) :=
  ld_at x1 r1_3 _ _ fun a => by
    match a with
    | ⟨0, _⟩ => rfl
    | ⟨1, _⟩ => show 0 + 1 * f.val = f.val; omega
    | ⟨2, _⟩ => show 0 + 1 * g.val = g.val; omega
theorem ld_w2 (x1 : Vec Ideal S3x128x128 .f32) (f g : Fin 128) :
    View.ld x1 r1_5 (ix3 (0 : Fin 1) f g) = x1 (ix3 (2 : Fin 3) f g) :=
  ld_at x1 r1_5 _ _ fun a => by
    match a with
    | ⟨0, _⟩ => rfl
    | ⟨1, _⟩ => show 0 + 1 * f.val = f.val; omega
    | ⟨2, _⟩ => show 0 + 1 * g.val = g.val; omega
theorem ld_b0 (x2 : Vec Ideal S3x128 .f32) (g : Fin 128) :
    View.ld x2 r1_2 (ix2 (0 : Fin 1) g) = x2 (ix2 (0 : Fin 3) g) :=
  ld_at x2 r1_2 _ _ fun a => by
    match a with
    | ⟨0, _⟩ => rfl
    | ⟨1, _⟩ => show 0 + 1 * g.val = g.val; omega
theorem ld_b1 (x2 : Vec Ideal S3x128 .f32) (g : Fin 128) :
    View.ld x2 r1_4 (ix2 (0 : Fin 1) g) = x2 (ix2 (1 : Fin 3) g) :=
  ld_at x2 r1_4 _ _ fun a => by
    match a with
    | ⟨0, _⟩ => rfl
    | ⟨1, _⟩ => show 0 + 1 * g.val = g.val; omega
theorem ld_b2 (x2 : Vec Ideal S3x128 .f32) (g : Fin 128) :
    View.ld x2 r1_6 (ix2 (0 : Fin 1) g) = x2 (ix2 (2 : Fin 3) g) :=
  ld_at x2 r1_6 _ _ fun a => by
    match a with
    | ⟨0, _⟩ => rfl
    | ⟨1, _⟩ => show 0 + 1 * g.val = g.val; omega
theorem ld_wo (x3 : Vec Ideal S128x12 .f32) (f : Fin 128) (o : Fin 12) :
    View.ld x3 r1_7 (ix2 f o) = x3 (ix2 f o) :=
  ld_at x3 r1_7 _ _ fun a => by
    match a with
    | ⟨0, _⟩ => show 0 + 1 * f.val = f.val; omega
    | ⟨1, _⟩ => show 0 + 1 * o.val = o.val; omega
theorem ld_a (x0 : Vec Ideal S5000x128 .f32) (p : Fin 5000) (f : Fin 128) :
    View.ld x0 r1_0 (ix2 p f) = x0 (ix2 p f) :=
  ld_at x0 r1_0 _ _ fun a => by
    match a with
    | ⟨0, _⟩ => show 0 + 1 * p.val = p.val; omega
    | ⟨1, _⟩ => show 0 + 1 * f.val = f.val; omega

/-- What the body leaves in the output's staging buffer, at an entry, from the four input blocks. -/
theorem out1_4_apply (x0 : Vec Ideal S5000x128 .f32) (x1 : Vec Ideal S3x128x128 .f32) (x2 : Vec Ideal S3x128 .f32)
    (x3 : Vec Ideal S128x12 .f32) (y : S5000x12.Idx) :
    out1_4 (F := Ideal) x0 x1 x2 x3 y
      = Cert.Spec.head (fun g f => x1 (ix3 (0 : Fin 3) f g)) (fun g f => x1 (ix3 (1 : Fin 3) f g))
          (fun g f => x1 (ix3 (2 : Fin 3) f g))
          (fun g => x2 (ix2 (0 : Fin 3) g)) (fun g => x2 (ix2 (1 : Fin 3) g)) (fun g => x2 (ix2 (2 : Fin 3) g))
          (fun o f => x3 (ix2 f o)) (fun f => x0 (ix2 (y 0) f)) (y 1) := by
  obtain ⟨p, q, rfl⟩ : ∃ (p : Fin 5000) (q : Fin 12), y = ix2 p q := ⟨y 0, y 1, eq_ix2 y⟩
  unfold out1_4
  rw [View.canon_unit_zero hz2]
  refine (Cert.KerPay.pay1_apply _ _ _ _ _ _ _ _ p q).trans ?_
  exact Cert.Spec.head_congr (fun g f => ld_w0 x1 f g) (fun g f => ld_w1 x1 f g) (fun g f => ld_w2 x1 f g)
    (fun g => ld_b0 x2 g) (fun g => ld_b1 x2 g) (fun g => ld_b2 x2 g) (fun o f => ld_wo x3 f o)
    (fun f => ld_a x0 p f) rfl

/-! ## The blocks read off the arrays -/

/-- The block indices of the five windows at a point: the summed array and the result move by rows, the weights stay. -/
theorem idx_facts1 : ∀ t : Fin cfg1.N, win1_0.index t (0 : Fin 2) = t.val ∧ win1_0.index t (1 : Fin 2) = 0
    ∧ win1_4.index t (0 : Fin 2) = t.val ∧ win1_4.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Block `t` of the summed array is its rows `5000 t … 5000 t + 4999`. -/
theorem iblk1_0_apply (c : Dev nD) (t : Fin cfg1.N) (x : S5000x128.Idx) (k : S20000x128.Idx)
    (hk0 : (k 0).val = t.val * 5000 + (x 0).val) (hk1 : (k 1).val = (x 1).val) :
    (iblk1 V c 0 t : Vec Ideal S5000x128 .f32) x = (V c main_v6 : S20000x128.Idx → EReal) k := by
  obtain ⟨e0, e1, -⟩ := idx_facts1 t
  unfold iblk1
  rw [View.read_apply]
  show V c main_v6 _ = V c main_v6 _
  refine congrArg (V c main_v6) (funext fun a => Fin.ext ?_)
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The layer matrices' block is the whole array. -/
theorem iblk1_1_apply (c : Dev nD) (t : Fin cfg1.N) (x : S3x128x128.Idx) :
    (iblk1 V c 1 t : Vec Ideal S3x128x128 .f32) x = (V c main_v7 : S3x128x128.Idx → EReal) x := by
  obtain ⟨-, -, -, -, e0, e1, e2, -⟩ := idx_facts1 t
  unfold iblk1
  rw [View.read_apply]
  show V c main_v7 _ = V c main_v7 _
  refine congrArg (V c main_v7) (funext fun a => Fin.ext ?_)
  match a with
  | ⟨0, _⟩ => show win1_1.index t 0 * 3 + 1 * (x 0).val = (x 0).val; rw [e0]; omega
  | ⟨1, _⟩ => show win1_1.index t 1 * 128 + 1 * (x 1).val = (x 1).val; rw [e1]; omega
  | ⟨2, _⟩ => show win1_1.index t 2 * 128 + 1 * (x 2).val = (x 2).val; rw [e2]; omega

/-- The biases' block is the whole array. -/
theorem iblk1_2_apply (c : Dev nD) (t : Fin cfg1.N) (x : S3x128.Idx) :
    (iblk1 V c 2 t : Vec Ideal S3x128 .f32) x = (V c main_arg5 : S3x128.Idx → EReal) x := by
  obtain ⟨-, -, -, -, -, -, -, e0, e1, -⟩ := idx_facts1 t
  unfold iblk1
  rw [View.read_apply]
  show V c main_arg5 _ = V c main_arg5 _
  refine congrArg (V c main_arg5) (funext fun a => Fin.ext ?_)
  match a with
  | ⟨0, _⟩ => show win1_2.index t 0 * 3 + 1 * (x 0).val = (x 0).val; rw [e0]; omega
  | ⟨1, _⟩ => show win1_2.index t 1 * 128 + 1 * (x 1).val = (x 1).val; rw [e1]; omega

/-- The projection's block is the whole array. -/
theorem iblk1_3_apply (c : Dev nD) (t : Fin cfg1.N) (x : S128x12.Idx) :
    (iblk1 V c 3 t : Vec Ideal S128x12 .f32) x = (V c main_v8 : S128x12.Idx → EReal) x := by
  obtain ⟨-, -, -, -, -, -, -, -, -, e0, e1⟩ := idx_facts1 t
  unfold iblk1
  rw [View.read_apply]
  show V c main_v8 _ = V c main_v8 _
  refine congrArg (V c main_v8) (funext fun a => Fin.ext ?_)
  match a with
  | ⟨0, _⟩ => show win1_3.index t 0 * 128 + 1 * (x 0).val = (x 0).val; rw [e0]; omega
  | ⟨1, _⟩ => show win1_3.index t 1 * 12 + 1 * (x 1).val = (x 1).val; rw [e1]; omega

/-! ## From blocks to the array -/

/-- What point `t` writes back is block `t` of `G1` of the arrays the region finds. -/
theorem flushed1_eq (c : Dev nD) (t : Fin cfg1.N) :
    (dat1 (F := Ideal) V c).flushed 4 t
      = ((cfg1.win 4).blk t).view.read (Elt Ideal) (G1 (V c main_v6) (V c main_v7) (V c main_arg5) (V c main_v8)) := by
  show (cfg1.win 4).cut (grid1.coords t) ((dat1 V c).after 4 t) = _
  rw [after1_4]
  funext j
  show out1_4 (iblk1 V c 0 t) (iblk1 V c 1 t) (iblk1 V c 2 t) (iblk1 V c 3 t) j
    = G1 (V c main_v6) (V c main_v7) (V c main_arg5) (V c main_v8) (((cfg1.win 4).blk t).view.emb j)
  rw [out1_4_apply]
  unfold G1
  obtain ⟨-, -, e0, e1, -⟩ := idx_facts1 t
  refine Cert.Spec.head_congr (fun g f => iblk1_1_apply V c t _) (fun g f => iblk1_1_apply V c t _)
    (fun g f => iblk1_1_apply V c t _) (fun g => iblk1_2_apply V c t _) (fun g => iblk1_2_apply V c t _)
    (fun g => iblk1_2_apply V c t _) (fun o f => iblk1_3_apply V c t _)
    (fun f => iblk1_0_apply V c t _ _ ?_ rfl) (Fin.ext ?_)
  · show win1_4.index t 0 * 5000 + 1 * (j 0).val = t.val * 5000 + (j 0).val
    rw [e0]; omega
  · show (j 1).val = win1_4.index t 1 * 12 + 1 * (j 1).val
    rw [e1]; omega

/-- An index of the result array is in point `t`'s block iff each coordinate is in the block's range on its axis. -/
theorem mem_blk1 (t : Fin cfg1.N) (i : S20000x12.Idx) :
    i ∈ ((cfg1.win 4).blk t).view.set ↔ ∀ a : Fin 2, win1_4.index t a * S5000x12.size a ≤ (i a).val
      ∧ (i a).val < win1_4.index t a * S5000x12.size a + S5000x12.size a := by
  show i ∈ ((View.whole main_v9).slice (win1_4.rect t)).set ↔ _
  rw [View.set_slice_whole, Rect.mem_set_unit]
  exact Iff.rfl

/-- The four blocks tile the rows: row `n` is in block `n / 5000`. -/
theorem cover1 (i : S20000x12.Idx) :
    ∃ t : Fin cfg1.N, (cfg1.win 4).flush t = true ∧ i ∈ ((cfg1.win 4).blk t).view.set := by
  have hN : grid1.N = 4 := N_1
  have hi0 : (i 0).val < 20000 := (i 0).isLt
  have hi1 : (i 1).val < 12 := (i 1).isLt
  have ht : (i 0).val / 5000 < grid1.N := by omega
  obtain ⟨-, -, e0, e1, -⟩ := idx_facts1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ 0 * 5000 ≤ (i 0).val
      ∧ (i 0).val < win1_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ 1 * 12 ≤ (i 1).val
      ∧ (i 1).val < win1_4.index ⟨(i 0).val / 5000, ht⟩ 1 * 12 + 12
    rw [e1]; omega

/-- The result array after the region: `G1` of the summed array, the transposed layer matrices, the biases and the
    transposed projection as the region finds them. -/
theorem final1 (c : Dev nD) :
    (dat1 (F := Ideal) V c).arrAt 4 cfg1.N = G1 (V c main_v6) (V c main_v7) (V c main_arg5) (V c main_v8) :=
  (dat1 (F := Ideal) V c).arrAt_eq_of_cover 4 (G1 (V c main_v6) (V c main_v7) (V c main_arg5) (V c main_v8))
    (fun t _ => flushed1_eq V c t) cover1

end Cert.KernelIdeal.Mlp

end
-- ==== Proof.KerMsg.lean ====
/-
  The first region's result array as one function of the arrays the region finds.

  The region walks 64 blocks of 10000 edges. At a block it reads the block's rows of the basis array and of the gate
  array and the whole transposed weight matrix, and writes the same rows of the message array: the message of edge
  `e` at feature `f` is the basis row of `e` projected by column `f` of the transposed weights, times the gate. The 64
  blocks tile the 640000 rows, so the array after the region is that function of the whole arrays.
-/
import proofs.«179193_j31791347925878_2_alg».proof.Proof.Gen.KernelIdeal.Frame
import proofs.«179193_j31791347925878_2_alg».proof.Proof.Spec
import proofs.«179193_j31791347925878_2_alg».proof.Proof.KerPay
import Idealize.ShloMosaic.Lib.Pipeline.Value
import Idealize.ShloMosaic.Lib.ValueIdx

set_option maxRecDepth 16384

noncomputable section

open scoped BigOperators

namespace Cert.KernelIdeal.Msg

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The message of edge `i 0` at feature `i 1`, from the basis array `rbf`, the gate array `g` and the transposed weights
    `wt r f`. -/
def G0 (rbf : FVec Ideal S640000x16 .f32) (g : FVec Ideal S640000x128 .f32) (wt : FVec Ideal S16x128 .f32) :
    FVec Ideal S640000x128 .f32 :=
  fun i => (∑ r : Fin 16, rbf (ix2 (i 0) r) * wt (ix2 r (i 1))) * g i

/-- The zero offsets, however spelt. -/
theorem hz2 : (![0, 0] : Fin 2 → Nat) = fun _ => 0 := funext fun a => by fin_cases a <;> rfl

/-- What the body leaves in the output's staging buffer, at an entry, from the three input blocks: the basis row
    projected by the weights' column, times the gate. -/
theorem out0_3_apply (x0 : Vec Ideal S10000x16 .f32) (x1 : Vec Ideal S10000x128 .f32) (x2 : Vec Ideal S16x128 .f32)
    (y : S10000x128.Idx) :
    out0_3 (F := Ideal) x0 x1 x2 y = (∑ r : Fin 16, x0 (ix2 (y 0) r) * x2 (ix2 r (y 1))) * x1 y := by
  obtain ⟨p, q, rfl⟩ : ∃ (p : Fin 10000) (q : Fin 128), y = ix2 p q := ⟨y 0, y 1, eq_ix2 y⟩
  have h0 : View.ld x0 r0_0 = x0 := View.ld_unit_zero hz2 _ x0
  have h1 : View.ld x2 r0_1 = x2 := View.ld_unit_zero hz2 _ x2
  have h2 : View.ld x1 r0_2 = x1 := View.ld_unit_zero hz2 _ x1
  unfold out0_3
  rw [View.canon_unit_zero hz2, h0, h1, h2]
  exact Cert.KerPay.pay0_apply x0 x2 x1 p q

/-! ## The blocks read off the arrays -/

/-- The block indices of the four windows at a point: the basis, the gate and the messages move by rows, the weights
    stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block `t` of the basis array is its rows `10000 t … 10000 t + 9999`. -/
theorem iblk0_0_apply (c : Dev nD) (t : Fin cfg0.N) (x : S10000x16.Idx) (k : S640000x16.Idx)
    (hk0 : (k 0).val = t.val * 10000 + (x 0).val) (hk1 : (k 1).val = (x 1).val) :
    (iblk0 V c 0 t : Vec Ideal S10000x16 .f32) x = (V c main_arg1 : S640000x16.Idx → EReal) k := by
  obtain ⟨e0, e1, -⟩ := idx_facts0 t
  unfold iblk0
  rw [View.read_apply]
  show V c main_arg1 _ = V c main_arg1 _
  refine congrArg (V c main_arg1) (funext fun a => Fin.ext ?_)
  match a with
  | ⟨0, _⟩ => show win0_0.index t 0 * 10000 + 1 * (x 0).val = (k 0).val; rw [e0, hk0]; omega
  | ⟨1, _⟩ => show win0_0.index t 1 * 16 + 1 * (x 1).val = (k 1).val; rw [e1, hk1]; omega

/-- Block `t` of the gate array is its rows `10000 t … 10000 t + 9999`. -/
theorem iblk0_1_apply (c : Dev nD) (t : Fin cfg0.N) (x : S10000x128.Idx) (k : S640000x128.Idx)
    (hk0 : (k 0).val = t.val * 10000 + (x 0).val) (hk1 : (k 1).val = (x 1).val) :
    (iblk0 V c 1 t : Vec Ideal S10000x128 .f32) x = (V c main_arg0 : S640000x128.Idx → EReal) k := by
  obtain ⟨-, -, e0, e1, -⟩ := idx_facts0 t
  unfold iblk0
  rw [View.read_apply]
  show V c main_arg0 _ = V c main_arg0 _
  refine congrArg (V c main_arg0) (funext fun a => Fin.ext ?_)
  match a with
  | ⟨0, _⟩ => show win0_1.index t 0 * 10000 + 1 * (x 0).val = (k 0).val; rw [e0, hk0]; omega
  | ⟨1, _⟩ => show win0_1.index t 1 * 128 + 1 * (x 1).val = (k 1).val; rw [e1, hk1]; omega

/-- The transposed weights' block is the whole array. -/
theorem iblk0_2_apply (c : Dev nD) (t : Fin cfg0.N) (x k : S16x128.Idx)
    (hk0 : (k 0).val = (x 0).val) (hk1 : (k 1).val = (x 1).val) :
    (iblk0 V c 2 t : Vec Ideal S16x128 .f32) x = (V c main_v0 : S16x128.Idx → EReal) k := by
  obtain ⟨-, -, -, -, e0, e1, -⟩ := idx_facts0 t
  unfold iblk0
  rw [View.read_apply]
  show V c main_v0 _ = V c main_v0 _
  refine congrArg (V c main_v0) (funext fun a => Fin.ext ?_)
  match a with
  | ⟨0, _⟩ => show win0_2.index t 0 * 16 + 1 * (x 0).val = (k 0).val; rw [e0, hk0]; omega
  | ⟨1, _⟩ => show win0_2.index t 1 * 128 + 1 * (x 1).val = (k 1).val; rw [e1, hk1]; omega

/-! ## From the blocks to the array -/

/-- What point `t` writes back is block `t` of the messages of the arrays as the region finds them. -/
theorem flushed0_eq (c : Dev nD) (t : Fin cfg0.N) :
    (dat0 (F := Ideal) V c).flushed 3 t
      = ((cfg0.win 3).blk t).view.read (Elt Ideal) (G0 (V c main_arg1) (V c main_arg0) (V c main_v0)) := by
  show (cfg0.win 3).cut (grid0.coords t) ((dat0 V c).after 3 t) = _
  rw [after0_3]
  obtain ⟨-, -, -, -, -, -, e0, e1⟩ := idx_facts0 t
  funext j
  show out0_3 (F := Ideal) (iblk0 V c 0 t) (iblk0 V c 1 t) (iblk0 V c 2 t) j
    = G0 (V c main_arg1) (V c main_arg0) (V c main_v0) (((cfg0.win 3).blk t).view.emb j)
  have c0 : ((((cfg0.win 3).blk t).view.emb j) 0).val = t.val * 10000 + (j 0).val := by
    show win0_3.index t (0 : Fin 2) * 10000 + 1 * (j 0).val = _; rw [e0]; omega
  have c1 : ((((cfg0.win 3).blk t).view.emb j) 1).val = (j 1).val := by
    show win0_3.index t (1 : Fin 2) * 128 + 1 * (j 1).val = _; rw [e1]; omega
  rw [out0_3_apply]
  unfold G0
  refine congrArg₂ (· * ·) (Finset.sum_congr rfl fun r _ => congrArg₂ (· * ·) ?_ ?_) ?_
  · exact iblk0_0_apply V c t _ _ c0 rfl
  · exact iblk0_2_apply V c t _ _ rfl c1
  · exact iblk0_1_apply V c t _ _ c0 c1

/-- An index of the message array is in point `t`'s block iff each coordinate is in the block's range on its axis. -/
theorem mem_blk0 (t : Fin cfg0.N) (i : S640000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v1).slice (win0_3.rect t)).set ↔ _
  rw [View.set_slice_whole, Rect.mem_set_unit]
  exact Iff.rfl

/-- The 64 blocks of 10000 rows cover the 640000 rows: row `e` is in block `e / 10000`. -/
theorem cover0 (i : S640000x128.Idx) :
    ∃ t : Fin cfg0.N, (cfg0.win 3).flush t = true ∧ i ∈ ((cfg0.win 3).blk t).view.set := by
  have hN := N_0
  have hi0 : (i 0).val < 640000 := (i 0).isLt
  have hi1 : (i 1).val < 128 := (i 1).isLt
  have ht : (i 0).val / 10000 < grid0.N := by omega
  obtain ⟨-, -, -, -, -, -, e0, e1⟩ := idx_facts0 ⟨(i 0).val / 10000, ht⟩
  refine ⟨⟨(i 0).val / 10000, ht⟩, flush0_3 _, ?_⟩
  rw [mem_blk0]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, ht⟩ (1 : Fin 2) * 128 ≤ (i 1).val
      ∧ (i 1).val < win0_3.index ⟨(i 0).val / 10000, ht⟩ (1 : Fin 2) * 128 + 128
    rw [e1]; omega

/-- The message array after the region: `G0` of the basis array, the gate array and the transposed weights as the region
    finds them. -/
theorem final0 (c : Dev nD) :
    (dat0 (F := Ideal) V c).arrAt 3 cfg0.N = G0 (V c main_arg1) (V c main_arg0) (V c main_v0) := by
  exact (dat0 (F := Ideal) V c).arrAt_eq_of_cover 3 (G0 (V c main_arg1) (V c main_arg0) (V c main_v0))
    (fun t _ => flushed0_eq V c t) cover0

end Cert.KernelIdeal.Msg

end
-- ==== Proof.KerValue.lean ====
/-
  The idealized kernel program's result as a function of its arguments.

  The run's last boundary holds, at the result buffer, what the second region's write-backs leave: the row-wise
  dense layers and projection of the array the region finds at its first window. That array is the scatter-add, by
  the second row of the index argument, of what the first region's write-backs leave: the message array. The host
  operations in between only transpose the weights. Read back to the launch memory, the result is the
  specification's `output` of the arguments' weights and of the scatter-added message array.
-/
import proofs.«179193_j31791347925878_2_alg».proof.Proof.Gen.KernelIdeal.Frame
import proofs.«179193_j31791347925878_2_alg».proof.Proof.Spec
import proofs.«179193_j31791347925878_2_alg».proof.Proof.KerMlp
import proofs.«179193_j31791347925878_2_alg».proof.Proof.KerMsg
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.ValueK

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)

/-- The scatter-add of a message array into 20000 zeroed rows, by the second row of the index array. Both programs
    apply it; it is never opened. -/
def atomOf (idx : Vec Ideal S2x640000 .i32) (msg : FVec Ideal S640000x128 .f32) : FVec Ideal S20000x128 .f32 :=
  Host.scatterAdd scatter_S20000x128_S640000x1_S640000x128_1_0_0_1
    (broadcastInDim S20000x128 ![] bcast_S_S20000x128 (constant (F := Ideal) S_ .f32 0x00000000#32))
    (broadcastInDim S640000x1 ![0] bcast_S640000_S640000x1_0
      (shapeCast _ (extractStridedSlice S1x640000 ![1, 0] idx slices_S2x640000_S1x640000_1_0) shapeCasts_S1x640000_S640000))
    msg

/-! ## The transposed weights, read at an entry -/

/-- The first region's function of the transposed projection weights is the specification's message array. -/
theorem g0_transpose (rbf : FVec Ideal S640000x16 .f32) (g : FVec Ideal S640000x128 .f32) (w : FVec Ideal S128x16 .f32) :
    Msg.G0 rbf g (transpose S16x128 [1, 0] w transposes_S128x16_S16x128_1_0) = Cert.Spec.message rbf w g := by
  funext i
  unfold Msg.G0 Cert.Spec.message Cert.Spec.messageAt
  refine congrArg₂ (· * ·) (Finset.sum_congr rfl fun r _ => congrArg₂ (· * ·) rfl ?_) ?_
  · refine transpose_apply _ _ _ _ _ fun b => ?_
    match b with
    | ⟨0, _⟩ => rfl
    | ⟨1, _⟩ => rfl
  · exact congrArg g (eq_ix2 i)

/-- The second region's function of the transposed layer matrices and the transposed projection is the
    specification's output. -/
theorem g1_transpose (a : FVec Ideal S20000x128 .f32) (W : FVec Ideal S3x128x128 .f32) (b : FVec Ideal S3x128 .f32)
    (Wout : FVec Ideal S12x128 .f32) :
    Mlp.G1 a (transpose S3x128x128 [0, 2, 1] W transposes_S3x128x128_S3x128x128_0_2_1) b
      (transpose S128x12 [1, 0] Wout transposes_S12x128_S128x12_1_0) = Cert.Spec.output W b Wout a := by
  funext i
  unfold Mlp.G1 Cert.Spec.output
  have hW : ∀ (k : Fin 3) (g f : Fin 128),
      transpose S3x128x128 [0, 2, 1] W transposes_S3x128x128_S3x128x128_0_2_1 (ix3 k f g) = W (ix3 k g f) := fun k g f =>
    transpose_apply _ _ _ _ _ fun b => by
      match b with
      | ⟨0, _⟩ => rfl
      | ⟨1, _⟩ => rfl
      | ⟨2, _⟩ => rfl
  have hO : ∀ (o : Fin 12) (f : Fin 128),
      transpose S128x12 [1, 0] Wout transposes_S12x128_S128x12_1_0 (ix2 f o) = Wout (ix2 o f) := fun o f =>
    transpose_apply _ _ _ _ _ fun b => by
      match b with
      | ⟨0, _⟩ => rfl
      | ⟨1, _⟩ => rfl
  exact Cert.Spec.head_congr (fun g f => hW 0 g f) (fun g f => hW 1 g f) (fun g f => hW 2 g f) (fun _ => rfl) (fun _ => rfl)
    (fun _ => rfl) (fun o f => hO o f) (fun _ => rfl) rfl

/-! ## The boundaries of the run, read back to the launch memory -/

variable (m : (ℓ : Loc nD τ sig) → Buf (Elt Ideal) ℓ) (ρ : Dev nD → PrngReg)

/-- The first region finds the gate argument as launched. -/
theorem v1_arg0 (c : Dev nD) : V1 m ρ c main_arg0 = m ((c : Thread nD τ).loc main_arg0) := by
  show StableHlo.after hostOps0 (W0 m ρ c) (Proc.devRef .tc main_arg0) = _
  after_results <;> rfl
/-- The first region finds the basis argument as launched. -/
theorem v1_arg1 (c : Dev nD) : V1 m ρ c main_arg1 = m ((c : Thread nD τ).loc main_arg1) := by
  show StableHlo.after hostOps0 (W0 m ρ c) (Proc.devRef .tc main_arg1) = _
  after_results <;> rfl
/-- The first region finds, at its third window, the projection weights transposed. -/
theorem v1_v0 (c : Dev nD) : V1 m ρ c main_v0
    = transpose S16x128 [1, 0] (m ((c : Thread nD τ).loc main_arg3)) transposes_S128x16_S16x128_1_0 := by
  show StableHlo.after hostOps0 (W0 m ρ c) (Proc.devRef .tc main_v0) = _
  after_results <;> rfl

/-- An argument the first region does not write is, at the region's exit, as launched. -/
theorem w2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem w2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)
theorem w2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)
theorem w2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)

/-- At the first region's exit its output array is the specification's message array of the arguments. -/
theorem w2_v1 (c : Dev nD) : W2 m ρ c (Proc.devRef .tc main_v1)
    = Cert.Spec.message (m ((c : Thread nD τ).loc main_arg1)) (m ((c : Thread nD τ).loc main_arg3))
        (m ((c : Thread nD τ).loc main_arg0)) := by
  refine (W2_arr m ρ c 3).trans ((Msg.final0 (V1 m ρ) c).trans ?_)
  rw [v1_arg1, v1_arg0, v1_v0]
  exact g0_transpose _ _ _

/-- The second region finds, at its first window, the scatter-add of the first region's output array. -/
theorem v3_v6 (c : Dev nD) : V3 m ρ c main_v6
    = atomOf (W2 m ρ c (Proc.devRef .tc main_arg2)) (W2 m ρ c (Proc.devRef .tc main_v1)) := by
  show StableHlo.after hostOps1 (W2 m ρ c) (Proc.devRef .tc main_v6) = _
  after_results <;> rfl
/-- At its second window, the layer matrices with their last two axes swapped. -/
theorem v3_v7 (c : Dev nD) : V3 m ρ c main_v7
    = transpose S3x128x128 [0, 2, 1] (W2 m ρ c (Proc.devRef .tc main_arg4)) transposes_S3x128x128_S3x128x128_0_2_1 := by
  show StableHlo.after hostOps1 (W2 m ρ c) (Proc.devRef .tc main_v7) = _
  after_results <;> rfl
/-- At its third window, the biases. -/
theorem v3_arg5 (c : Dev nD) : V3 m ρ c main_arg5 = W2 m ρ c (Proc.devRef .tc main_arg5) := by
  show StableHlo.after hostOps1 (W2 m ρ c) (Proc.devRef .tc main_arg5) = _
  after_results <;> rfl
/-- At its fourth window, the final projection transposed. -/
theorem v3_v8 (c : Dev nD) : V3 m ρ c main_v8
    = transpose S128x12 [1, 0] (W2 m ρ c (Proc.devRef .tc main_arg6)) transposes_S12x128_S128x12_1_0 := by
  show StableHlo.after hostOps1 (W2 m ρ c) (Proc.devRef .tc main_v8) = _
  after_results <;> rfl

/-- The result buffer at the last boundary of the run, as a function of the launch memory. -/
def result (c : Dev nD) : FVec Ideal S20000x12 .f32 :=
  Cert.Spec.output (m ((c : Thread nD τ).loc main_arg4)) (m ((c : Thread nD τ).loc main_arg5))
    (m ((c : Thread nD τ).loc main_arg6))
    (atomOf (m ((c : Thread nD τ).loc main_arg2))
      (Cert.Spec.message (m ((c : Thread nD τ).loc main_arg1)) (m ((c : Thread nD τ).loc main_arg3))
        (m ((c : Thread nD τ).loc main_arg0))))

theorem result_eq (c : Dev nD) : W4 m ρ c (Proc.devRef .tc main_v9) = result m c := by
  refine (W4_arr m ρ c 4).trans ((Mlp.final1 (V3 m ρ) c).trans ?_)
  rw [v3_v6, v3_v7, v3_arg5, v3_v8, w2_arg2, w2_arg4, w2_arg5, w2_arg6, w2_v1]
  exact g1_transpose _ _ _ _

end Cert.KernelIdeal.ValueK

end
-- ==== Proof.RefSpec.lean ====
/-
  The reference program's stages are the row-wise functions of the specification: its message array is `Spec.message`
  of the arguments, and its result is `Spec.output` of the weights and of the scatter-added array.
-/
import proofs.«179193_j31791347925878_2_alg».proof.Proof.Gen.ReferenceIdeal.Read
import proofs.«179193_j31791347925878_2_alg».proof.Proof.Spec

noncomputable section

open scoped BigOperators

namespace Cert.RefSpec

open Idealize.ShloMosaic Idealize.ShloMosaic.ValueIdx Cert.ReferenceIdeal Cert.ReferenceIdeal.Read

/-- The word `0x3F800000` denotes the number one. -/
theorem one_word : Ideal.ofBits .f32 0x3F800000#32 = 1 := by
  simp [Ideal.ofBits, Ideal.ieee, -EReal.coe_mul]; norm_num

/-- The reference's activation, `x · (1 / (1 + e⁻ˣ))` with both ones given as the word `0x3F800000`, is `silu x`:
    the word denotes one, and `logistic x` is `1 / (1 + e⁻ˣ)` by definition. -/
theorem silu_host (X : EReal) :
    FloatOps.mulf (F := Ideal) (φ := .f32) X
        (FloatOps.hostDivf (FloatOps.ofBits .f32 0x3F800000#32)
          (FloatOps.addf (FloatOps.ofBits .f32 0x3F800000#32) (FloatOps.hostUnary .exp (FloatOps.hostNegf X))))
      = Cert.Spec.silu X := by
  show X * Ideal.div (Ideal.ofBits .f32 0x3F800000#32) (Ideal.ofBits .f32 0x3F800000#32 + Ideal.exp (-X))
      = X * Ideal.div 1 (1 + Ideal.exp (-X))
  rw [one_word]

/-! ### The first dense layer -/

/-- The left operand of the first layer's product is read at row `n`, column `k`. -/
theorem lhs_row0 (n : Fin 20000) (g k : Fin 128) : lidx_main_v9 (ix2 n g) k = ix2 n k :=
  funext fun a => Fin.ext (by match a with | ⟨0, _⟩ => rfl | ⟨1, _⟩ => rfl)

/-- The right operand, slice `0` of the weights seen as a matrix, is read at `(0, g, k)`:
    `(g · 128 + k) / 128 mod 128 = g` and `(g · 128 + k) mod 128 = k` for `g, k < 128`. -/
theorem weight_entry0 (n : Fin 20000) (g k : Fin 128) :
    idx_main_v7 (idx_main_v8 (ridx_main_v9 (ix2 n g) k)) = ix3 0 g k :=
  funext fun a => Fin.ext (by
    have hg := g.isLt
    have hk := k.isLt
    match a with
    | ⟨0, _⟩ => rfl
    | ⟨1, _⟩ => show (g.val * 128 + k.val) / 128 % 128 = g.val; omega
    | ⟨2, _⟩ => show (g.val * 128 + k.val) % 128 = k.val; omega)

/-- The bias, row `0` of the biases repeated along the rows, is read at `(0, g)`. -/
theorem bias_entry0 (n : Fin 20000) (g : Fin 128) :
    idx_main_v10 (idx_main_v11 (idx_main_v12 (idx_main_v13 (ix2 n g)))) = ix2 0 g :=
  funext fun a => Fin.ext (by
    have hg := g.isLt
    match a with
    | ⟨0, _⟩ => rfl
    | ⟨1, _⟩ => show g.val % 128 = g.val; omega)

/-- The first layer's result at `(n, g)` is `Spec.dense` of slice `0` of the weights and biases applied to row `n`
    of the scatter-added array, which stays closed. -/
theorem layer0 (x0 : (⟨S640000x128, .f32⟩ : BufTy).Contents (Elt Ideal)) (x1 : (⟨S640000x16, .f32⟩ : BufTy).Contents (Elt Ideal))
    (x2 : (⟨S2x640000, .i32⟩ : BufTy).Contents (Elt Ideal)) (x3 : (⟨S128x16, .f32⟩ : BufTy).Contents (Elt Ideal))
    (x4 : (⟨S3x128x128, .f32⟩ : BufTy).Contents (Elt Ideal)) (x5 : (⟨S3x128, .f32⟩ : BufTy).Contents (Elt Ideal)) (n : Fin 20000) (g : Fin 128) :
    val_main_v15 (F := Ideal) x0 x1 x2 x3 x4 x5 (ix2 n g)
      = Cert.Spec.dense (fun g f => x4 (ix3 0 g f)) (fun g => x5 (ix2 0 g))
          (fun f => val_main_v6 (F := Ideal) x0 x1 x2 x3 (ix2 n f)) g := by
  rw [val_main_v15_apply, val_main_call0_v5_apply, val_main_call0_v4_apply, val_main_call0_cst_0_apply,
    val_main_call0_v3_apply, val_main_call0_v2_apply, val_main_call0_cst_apply, val_main_call0_v1_apply,
    val_main_call0_v0_apply, val_main_v14_apply, val_main_v9_apply,
    val_main_v13_apply, val_main_v12_apply, val_main_v11_apply, val_main_v10_apply, bias_entry0]
  generalize val_main_v6 (F := Ideal) x0 x1 x2 x3 = prev
  simp only [val_main_v8_apply, val_main_v7_apply, lhs_row0, weight_entry0]
  exact silu_host _

/-! ### The second dense layer -/

/-- The left operand of the second layer's product is read at row `n`, column `k`. -/
theorem lhs_row1 (n : Fin 20000) (g k : Fin 128) : lidx_main_v18 (ix2 n g) k = ix2 n k :=
  funext fun a => Fin.ext (by match a with | ⟨0, _⟩ => rfl | ⟨1, _⟩ => rfl)

/-- The right operand, slice `1` of the weights seen as a matrix, is read at `(1, g, k)`:
    `(g · 128 + k) / 128 mod 128 = g` and `(g · 128 + k) mod 128 = k` for `g, k < 128`. -/
theorem weight_entry1 (n : Fin 20000) (g k : Fin 128) :
    idx_main_v16 (idx_main_v17 (ridx_main_v18 (ix2 n g) k)) = ix3 1 g k :=
  funext fun a => Fin.ext (by
    have hg := g.isLt
    have hk := k.isLt
    match a with
    | ⟨0, _⟩ => rfl
    | ⟨1, _⟩ => show (g.val * 128 + k.val) / 128 % 128 = g.val; omega
    | ⟨2, _⟩ => show (g.val * 128 + k.val) % 128 = k.val; omega)

/-- The bias, row `1` of the biases repeated along the rows, is read at `(1, g)`. -/
theorem bias_entry1 (n : Fin 20000) (g : Fin 128) :
    idx_main_v19 (idx_main_v20 (idx_main_v21 (idx_main_v22 (ix2 n g)))) = ix2 1 g :=
  funext fun a => Fin.ext (by
    have hg := g.isLt
    match a with
    | ⟨0, _⟩ => rfl
    | ⟨1, _⟩ => show g.val % 128 = g.val; omega)

/-- The second layer's result at `(n, g)` is `Spec.dense` of slice `1` of the weights and biases applied to row `n`
    of the first layer's result, which stays closed. -/
theorem layer1 (x0 : (⟨S640000x128, .f32⟩ : BufTy).Contents (Elt Ideal)) (x1 : (⟨S640000x16, .f32⟩ : BufTy).Contents (Elt Ideal))
    (x2 : (⟨S2x640000, .i32⟩ : BufTy).Contents (Elt Ideal)) (x3 : (⟨S128x16, .f32⟩ : BufTy).Contents (Elt Ideal))
    (x4 : (⟨S3x128x128, .f32⟩ : BufTy).Contents (Elt Ideal)) (x5 : (⟨S3x128, .f32⟩ : BufTy).Contents (Elt Ideal)) (n : Fin 20000) (g : Fin 128) :
    val_main_v24 (F := Ideal) x0 x1 x2 x3 x4 x5 (ix2 n g)
      = Cert.Spec.dense (fun g f => x4 (ix3 1 g f)) (fun g => x5 (ix2 1 g))
          (fun f => val_main_v15 (F := Ideal) x0 x1 x2 x3 x4 x5 (ix2 n f)) g := by
  rw [val_main_v24_apply, val_main_call1_v5_apply, val_main_call1_v4_apply, val_main_call1_cst_0_apply,
    val_main_call1_v3_apply, val_main_call1_v2_apply, val_main_call1_cst_apply, val_main_call1_v1_apply,
    val_main_call1_v0_apply, val_main_v23_apply, val_main_v18_apply,
    val_main_v22_apply, val_main_v21_apply, val_main_v20_apply, val_main_v19_apply, bias_entry1]
  generalize val_main_v15 (F := Ideal) x0 x1 x2 x3 x4 x5 = prev
  simp only [val_main_v17_apply, val_main_v16_apply, lhs_row1, weight_entry1]
  exact silu_host _

/-! ### The third dense layer -/

/-- The left operand of the third layer's product is read at row `n`, column `k`. -/
theorem lhs_row2 (n : Fin 20000) (g k : Fin 128) : lidx_main_v27 (ix2 n g) k = ix2 n k :=
  funext fun a => Fin.ext (by match a with | ⟨0, _⟩ => rfl | ⟨1, _⟩ => rfl)

/-- The right operand, slice `2` of the weights seen as a matrix, is read at `(2, g, k)`:
    `(g · 128 + k) / 128 mod 128 = g` and `(g · 128 + k) mod 128 = k` for `g, k < 128`. -/
theorem weight_entry2 (n : Fin 20000) (g k : Fin 128) :
    idx_main_v25 (idx_main_v26 (ridx_main_v27 (ix2 n g) k)) = ix3 2 g k :=
  funext fun a => Fin.ext (by
    have hg := g.isLt
    have hk := k.isLt
    match a with
    | ⟨0, _⟩ => rfl
    | ⟨1, _⟩ => show (g.val * 128 + k.val) / 128 % 128 = g.val; omega
    | ⟨2, _⟩ => show (g.val * 128 + k.val) % 128 = k.val; omega)

/-- The bias, row `2` of the biases repeated along the rows, is read at `(2, g)`. -/
theorem bias_entry2 (n : Fin 20000) (g : Fin 128) :
    idx_main_v28 (idx_main_v29 (idx_main_v30 (idx_main_v31 (ix2 n g)))) = ix2 2 g :=
  funext fun a => Fin.ext (by
    have hg := g.isLt
    match a with
    | ⟨0, _⟩ => rfl
    | ⟨1, _⟩ => show g.val % 128 = g.val; omega)

/-- The third layer's result at `(n, g)` is `Spec.dense` of slice `2` of the weights and biases applied to row `n`
    of the second layer's result, which stays closed. -/
theorem layer2 (x0 : (⟨S640000x128, .f32⟩ : BufTy).Contents (Elt Ideal)) (x1 : (⟨S640000x16, .f32⟩ : BufTy).Contents (Elt Ideal))
    (x2 : (⟨S2x640000, .i32⟩ : BufTy).Contents (Elt Ideal)) (x3 : (⟨S128x16, .f32⟩ : BufTy).Contents (Elt Ideal))
    (x4 : (⟨S3x128x128, .f32⟩ : BufTy).Contents (Elt Ideal)) (x5 : (⟨S3x128, .f32⟩ : BufTy).Contents (Elt Ideal)) (n : Fin 20000) (g : Fin 128) :
    val_main_v33 (F := Ideal) x0 x1 x2 x3 x4 x5 (ix2 n g)
      = Cert.Spec.dense (fun g f => x4 (ix3 2 g f)) (fun g => x5 (ix2 2 g))
          (fun f => val_main_v24 (F := Ideal) x0 x1 x2 x3 x4 x5 (ix2 n f)) g := by
  rw [val_main_v33_apply, val_main_call2_v5_apply, val_main_call2_v4_apply, val_main_call2_cst_0_apply,
    val_main_call2_v3_apply, val_main_call2_v2_apply, val_main_call2_cst_apply, val_main_call2_v1_apply,
    val_main_call2_v0_apply, val_main_v32_apply, val_main_v27_apply,
    val_main_v31_apply, val_main_v30_apply, val_main_v29_apply, val_main_v28_apply, bias_entry2]
  generalize val_main_v24 (F := Ideal) x0 x1 x2 x3 x4 x5 = prev
  simp only [val_main_v26_apply, val_main_v25_apply, lhs_row2, weight_entry2]
  exact silu_host _

/-! ### The projection and the chain -/

/-- The left operand of the projection is read at row `n`, column `k`. -/
theorem lhs_row3 (n : Fin 20000) (o : Fin 12) (k : Fin 128) : lidx_main_v34 (ix2 n o) k = ix2 n k :=
  funext fun a => Fin.ext (by match a with | ⟨0, _⟩ => rfl | ⟨1, _⟩ => rfl)

/-- The right operand of the projection is read at `(o, k)`. -/
theorem rhs_row3 (n : Fin 20000) (o : Fin 12) (k : Fin 128) : ridx_main_v34 (ix2 n o) k = ix2 o k :=
  funext fun a => Fin.ext (by match a with | ⟨0, _⟩ => rfl | ⟨1, _⟩ => rfl)

/-- The reference's product-and-gate stage is the message array. -/
theorem ref_message (x0 : (⟨S640000x128, .f32⟩ : BufTy).Contents (Elt Ideal)) (x1 : (⟨S640000x16, .f32⟩ : BufTy).Contents (Elt Ideal))
    (x3 : (⟨S128x16, .f32⟩ : BufTy).Contents (Elt Ideal)) :
    val_main_v1 (F := Ideal) x0 x1 x3 = Cert.Spec.message x1 x3 x0 := by
  funext i
  obtain ⟨e, f, rfl⟩ : ∃ (e : Fin 640000) (f : Fin 128), i = ix2 e f := ⟨i 0, i 1, eq_ix2 i⟩
  rw [val_main_v1_apply, val_main_v0_apply]
  -- the two operands of the product are read at `(e, k)` and `(f, k)`
  have hl : ∀ k : Fin 16, lidx_main_v0 (ix2 e f) k = ix2 e k := fun k =>
    funext fun a => Fin.ext (by match a with | ⟨0, _⟩ => rfl | ⟨1, _⟩ => rfl)
  have hr : ∀ k : Fin 16, ridx_main_v0 (ix2 e f) k = ix2 f k := fun k =>
    funext fun a => Fin.ext (by match a with | ⟨0, _⟩ => rfl | ⟨1, _⟩ => rfl)
  simp only [hl, hr]
  rfl

/-- The reference's result is the three dense layers and the projection applied, row by row, to its scatter-added array. -/
theorem ref_output (x0 : (⟨S640000x128, .f32⟩ : BufTy).Contents (Elt Ideal)) (x1 : (⟨S640000x16, .f32⟩ : BufTy).Contents (Elt Ideal))
    (x2 : (⟨S2x640000, .i32⟩ : BufTy).Contents (Elt Ideal)) (x3 : (⟨S128x16, .f32⟩ : BufTy).Contents (Elt Ideal))
    (x4 : (⟨S3x128x128, .f32⟩ : BufTy).Contents (Elt Ideal)) (x5 : (⟨S3x128, .f32⟩ : BufTy).Contents (Elt Ideal))
    (x6 : (⟨S12x128, .f32⟩ : BufTy).Contents (Elt Ideal)) :
    val_main_v34 (F := Ideal) x0 x1 x2 x3 x4 x5 x6
      = Cert.Spec.output x4 x5 x6 (val_main_v6 (F := Ideal) x0 x1 x2 x3) := by
  funext i
  obtain ⟨n, o, rfl⟩ : ∃ (n : Fin 20000) (o : Fin 12), i = ix2 n o := ⟨i 0, i 1, eq_ix2 i⟩
  rw [val_main_v34_apply]
  -- each layer's row `n` is `Spec.dense` of the previous layer's row `n`; the scatter-added array stays closed
  simp only [lhs_row3, rhs_row3, layer2, layer1, layer0]
  generalize val_main_v6 (F := Ideal) x0 x1 x2 x3 = atom
  rfl

end Cert.RefSpec

end
-- ==== Proof.lean ====
/-
  The kernel program and its reference compute the same function of their arguments, over the extended reals.

  Both project each edge's radial-basis row by the basis weights and gate it with the edge's features (the message
  array), scatter-add the messages into the atoms the second index row names, and push every atom's 128 summed
  features through three dense layers with the activation `x · logistic x` and a final projection to 12 numbers.
  The kernel program computes the message array and the dense stack in two kernel regions, block of rows by block
  of rows, with the weights transposed on the host beforehand; the reference computes whole arrays. A matrix product
  into a zero accumulator is, at an entry, the same finite sum in the same order on both sides; the activation is
  one function on both sides (`logistic x = 1 / (1 + e⁻ˣ)` is how the reference spells it); the scatter-add is the same
  operation applied to equal operands and is never opened. No law of the extended reals beyond these readings is
  used, so the finiteness of the inputs is not needed for the values.

  The three frames are the generated ones (the reference's is its generated run with the result dropped); the
  idealization rewrote nothing, so there is nothing to preserve.
-/
import proofs.«179193_j31791347925878_2_alg».proof.Defs
import proofs.«179193_j31791347925878_2_alg».proof.Proof.Gen.Kernel
import proofs.«179193_j31791347925878_2_alg».proof.Proof.Gen.Kernel.Skeleton
import proofs.«179193_j31791347925878_2_alg».proof.Proof.Gen.Kernel.Launch
import proofs.«179193_j31791347925878_2_alg».proof.Proof.Gen.Kernel.Points
import proofs.«179193_j31791347925878_2_alg».proof.Proof.Gen.Kernel.Frame
import proofs.«179193_j31791347925878_2_alg».proof.Proof.Gen.KernelIdeal
import proofs.«179193_j31791347925878_2_alg».proof.Proof.Gen.KernelIdeal.Skeleton
import proofs.«179193_j31791347925878_2_alg».proof.Proof.Gen.KernelIdeal.Launch
import proofs.«179193_j31791347925878_2_alg».proof.Proof.Gen.KernelIdeal.Points
import proofs.«179193_j31791347925878_2_alg».proof.Proof.Gen.KernelIdeal.Frame
import proofs.«179193_j31791347925878_2_alg».proof.Proof.Gen.ReferenceIdeal
import proofs.«179193_j31791347925878_2_alg».proof.Proof.Gen.ReferenceIdeal.Run
import proofs.«179193_j31791347925878_2_alg».proof.Proof.Gen.ReferenceIdeal.Read
import proofs.«179193_j31791347925878_2_alg».proof.Proof.Gen.Pre_finite_inputs
import proofs.«179193_j31791347925878_2_alg».proof.Proof.KerRun
import proofs.«179193_j31791347925878_2_alg».proof.Proof.KerValue
import proofs.«179193_j31791347925878_2_alg».proof.Proof.RefSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's scatter-added array is the kernel program's: the same scatter-add of the same zeroed rows, the same
    index column and the message array. -/
theorem ref_atom (x0 : (⟨Cert.ReferenceIdeal.S640000x128, .f32⟩ : BufTy).Contents (Elt Ideal))
    (x1 : (⟨Cert.ReferenceIdeal.S640000x16, .f32⟩ : BufTy).Contents (Elt Ideal))
    (x2 : (⟨Cert.ReferenceIdeal.S2x640000, .i32⟩ : BufTy).Contents (Elt Ideal))
    (x3 : (⟨Cert.ReferenceIdeal.S128x16, .f32⟩ : BufTy).Contents (Elt Ideal)) :
    Cert.ReferenceIdeal.Read.val_main_v6 (F := Ideal) x0 x1 x2 x3
      = Cert.KernelIdeal.ValueK.atomOf x2 (Cert.Spec.message x1 x3 x0) := by
  unfold Cert.ReferenceIdeal.Read.val_main_v6
  rw [Cert.RefSpec.ref_message]
  rfl

/-- At the ideal values the two programs, run from memories that agree on the arguments, end with the same result:
    the specification's output of the weights and of the scatter-added message array. -/
theorem algebraic : Cert.algebraic_KernelIdeal_ReferenceIdeal := by
  intro m ρ m' ρ' _ hagree
  refine ⟨fun c => Cert.KernelIdeal.ValueK.result m c, ?_, ?_⟩
  · exact (θ_run Cert.KernelIdeal.defs _ _).mono
      (fun r h c => ⟨(h c).1.trans (Cert.KernelIdeal.ValueK.result_eq m ρ c), (h c).2⟩)
      (Cert.KernelIdeal.RunV.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v34_eq, Cert.RefSpec.ref_output, ref_atom, h0, h1, h2, h3, h4, h5, h6]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
